-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_v3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x16 : Shape := ⟨2, ![4194304, 16]⟩
abbrev S_ : Shape := ⟨0, ![]⟩

class Facts : Prop where
  bcast_S_S4194304x16 : S_.BroadcastsInDim S4194304x16 (![] : Fin 0 → Fin S4194304x16.rank)
  reducesTo_S4194304x16_S_d0_1 : S4194304x16.ReducesTo [0, 1] S_
  h_S_ : 0 < S_.numel

variable [Facts]

def fn {F : FTy → Type} [FloatOps F] (main_arg0 : FVec F S4194304x16 .f32) (main_arg1 : FVec F S4194304x16 .f32) : IVec S_ 1 :=
  let main_v0 : FVec F S4194304x16 .f32 := Host.absf main_arg0
  let main_cst : FVec F S_ .f32 := constant S_ .f32 0x7F800000#32
  let main_v1 : FVec F S4194304x16 .f32 := broadcastInDim S4194304x16 ![] bcast_S_S4194304x16 main_cst
  let main_v2 : IVec S4194304x16 1 := cmpf .olt main_v0 main_v1
  let main_c : IVec S_ 1 := constantI S_ 1 1#1
  let main_v3 : IVec S_ 1 := (fun x v => Host.reduce IntOp.andi x v reducesTo_S4194304x16_S_d0_1 h_S_) main_v2 main_c
  let main_v4 : FVec F S4194304x16 .f32 := Host.absf main_arg1
  let main_cst_0 : FVec F S_ .f32 := constant S_ .f32 0x7F800000#32
  let main_v5 : FVec F S4194304x16 .f32 := broadcastInDim S4194304x16 ![] bcast_S_S4194304x16 main_cst_0
  let main_v6 : IVec S4194304x16 1 := cmpf .olt main_v4 main_v5
  let main_c_1 : IVec S_ 1 := constantI S_ 1 1#1
  let main_v7 : IVec S_ 1 := (fun x v => Host.reduce IntOp.andi x v reducesTo_S4194304x16_S_d0_1 h_S_) main_v6 main_c_1
  let main_v8 : IVec S_ 1 := andi main_v3 main_v7
  main_v8
-- ==== Kernel.lean ====
abbrev S4194304x16 : Shape := ⟨2, ![4194304, 16]⟩
abbrev S524288x128 : Shape := ⟨2, ![524288, 128]⟩
abbrev S2x1x128 : Shape := ⟨3, ![2, 1, 128]⟩
abbrev S8192x128 : Shape := ⟨2, ![8192, 128]⟩
abbrev S1x1x128 : Shape := ⟨3, ![1, 1, 128]⟩
abbrev S128 : Shape := ⟨1, ![128]⟩
abbrev S1x128 : Shape := ⟨2, ![1, 128]⟩
abbrev S2x128 : Shape := ⟨2, ![2, 128]⟩
abbrev S_ : Shape := ⟨0, ![]⟩
abbrev S8x16 : Shape := ⟨2, ![8, 16]⟩
abbrev S16 : Shape := ⟨1, ![16]⟩

abbrev nBuf : Space → Nat
  | .hbm => 39
  | .vmem => 10
  | .smem => 0
  | _ => 0

abbrev bufTy : (tb : Table) → Fin (tcTables nBuf tb) → BufTy
  | .hbm, ⟨0, _⟩ => ⟨S4194304x16, .f32⟩
  | .hbm, ⟨1, _⟩ => ⟨S4194304x16, .f32⟩
  | .hbm, ⟨2, _⟩ => ⟨S524288x128, .f32⟩
  | .hbm, ⟨3, _⟩ => ⟨S524288x128, .f32⟩
  | .hbm, ⟨4, _⟩ => ⟨S2x1x128, .f32⟩
  | .hbm, ⟨5, _⟩ => ⟨S2x1x128, .f32⟩
  | .hbm, ⟨6, _⟩ => ⟨S2x1x128, .f32⟩
  | .hbm, ⟨7, _⟩ => ⟨S2x128, .f32⟩
  | .hbm, ⟨8, _⟩ => ⟨S_, .f32⟩
  | .hbm, ⟨9, _⟩ => ⟨S128, .f32⟩
  | .hbm, ⟨10, _⟩ => ⟨S8x16, .f32⟩
  | .hbm, ⟨11, _⟩ => ⟨S_, .f32⟩
  | .hbm, ⟨12, _⟩ => ⟨S16, .f32⟩
  | .hbm, ⟨13, _⟩ => ⟨S2x128, .f32⟩
  | .hbm, ⟨14, _⟩ => ⟨S_, .f32⟩
  | .hbm, ⟨15, _⟩ => ⟨S128, .f32⟩
  | .hbm, ⟨16, _⟩ => ⟨S8x16, .f32⟩
  | .hbm, ⟨17, _⟩ => ⟨S_, .f32⟩
  | .hbm, ⟨18, _⟩ => ⟨S16, .f32⟩
  | .hbm, ⟨19, _⟩ => ⟨S2x128, .f32⟩
  | .hbm, ⟨20, _⟩ => ⟨S_, .f32⟩
  | .hbm, ⟨21, _⟩ => ⟨S128, .f32⟩
  | .hbm, ⟨22, _⟩ => ⟨S8x16, .f32⟩
  | .hbm, ⟨23, _⟩ => ⟨S_, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | _, _ => ⟨S4194304x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4194304x16_S524288x128 : S4194304x16.ShapeCasts S524288x128
  inb_S1x1x128_S1x1x128_0_0_0 : ∀ a, (![0, 0, 0] : Fin 3 → Nat) a + S1x1x128.size a ≤ S1x1x128.size a
  h_S1x1x128 : 0 < S1x1x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  shapeCasts_S1x128_S1x1x128 : S1x128.ShapeCasts S1x1x128
  shapeCasts_S1x1x128_S1x1x128 : S1x1x128.ShapeCasts S1x1x128
  shapeCasts_S2x1x128_S2x128 : S2x1x128.ShapeCasts S2x128
  reducesTo_S2x128_S128_d0 : S2x128.ReducesTo [0] S128
  h_S_ : 0 < S_.numel
  shapeCasts_S128_S8x16 : S128.ShapeCasts S8x16
  reducesTo_S8x16_S16_d0 : S8x16.ReducesTo [0] S16
  bcast_S_S16 : S_.BroadcastsInDim S16 (![] : Fin 0 → Fin S16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4194304x16 : Shape := ⟨2, ![4194304, 16]⟩
abbrev S_ : Shape := ⟨0, ![]⟩
abbrev S16 : Shape := ⟨1, ![16]⟩

abbrev nBuf : Space → Nat
  | .hbm => 23
  | .vmem => 0
  | .smem => 0
  | _ => 0

abbrev bufTy : (tb : Table) → Fin (tcTables nBuf tb) → BufTy
  | .hbm, ⟨0, _⟩ => ⟨S4194304x16, .f32⟩
  | .hbm, ⟨1, _⟩ => ⟨S4194304x16, .f32⟩
  | .hbm, ⟨2, _⟩ => ⟨S4194304x16, .f32⟩
  | .hbm, ⟨3, _⟩ => ⟨S_, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | _, _ => ⟨S4194304x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  reducesTo_S4194304x16_S16_d0 : S4194304x16.ReducesTo [0] S16
  h_S_ : 0 < S_.numel
  bcast_S_S16 : S_.BroadcastsInDim S16 (![] : Fin 0 → Fin S16.rank)

variable [Facts₀]

class Facts : Prop extends Facts₀ where

variable [Facts]
-- ==== Proof.KPieces.lean ====
/-
  What the kernel body leaves in its three output buffers, case by case.

  The body keeps three running lane sums, one per output block of 128 lanes: of the products pred·gt, of gt, and of
  pred, each over the 8192 rows of the point's input blocks. At the first point of a core's run of 32 points it stores
  the zero block and adds the point's lane sums to it; at every later point it adds them to what the point before left.
  Each lemma below reads one case's stores back as the corresponding store's value.
-/
import proofs.«109113_j42863773614715_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ColSum

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that does not open a core's run, output 2's buffer ends at the accumulating store's value over what the
    point before left there: the one store covers the block, and its loads read the whole staging buffers. -/
theorem piece_B_2 (c : Dev nD) (i : grid0.Coords) (a2 : Memref sig .tc .vmem S8192x128 .f32) (h2 : a2.IsWhole) (a3 : Memref sig .tc .vmem S8192x128 .f32) (h3 : a3.IsWhole) (a4 : Memref sig .tc .vmem S1x1x128 .f32) (h4 : a4.IsWhole) (a5 : Memref sig .tc .vmem S1x1x128 .f32) (h5 : a5.IsWhole) (a6 : Memref sig .tc .vmem S1x1x128 .f32) (h6 : a6.IsWhole) (hc : ¬cond0_0 i)
    (x0 x1 : Vec F S8192x128 .f32) (xo2 xo3 xo4 : Vec F S1x1x128 .f32) :
    out0_B_2 c i a2 h2 a3 h3 a4 h4 a5 h5 a6 h6 hc x0 x1 xo2 xo3 xo4 = k0_pay6 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  try sl_unfold_words
  rw [View.canon_unit_zero hz3]
  simp only [View.readAt_eq_ld, h2.read_unread, h3.read_unread, h4.read_unread, h5.read_unread, h6.read_unread,
    View.ld_unit_zero (S := S1x1x128) hz3, View.ld_unit_zero (S := S8192x128) hz2]

/-- At a point that does not open a core's run, output 3's buffer ends at the accumulating store's value over what the
    point before left there: the one store covers the block, and its loads read the whole staging buffers. -/
theorem piece_B_3 (c : Dev nD) (i : grid0.Coords) (a2 : Memref sig .tc .vmem S8192x128 .f32) (h2 : a2.IsWhole) (a3 : Memref sig .tc .vmem S8192x128 .f32) (h3 : a3.IsWhole) (a4 : Memref sig .tc .vmem S1x1x128 .f32) (h4 : a4.IsWhole) (a5 : Memref sig .tc .vmem S1x1x128 .f32) (h5 : a5.IsWhole) (a6 : Memref sig .tc .vmem S1x1x128 .f32) (h6 : a6.IsWhole) (hc : ¬cond0_0 i)
    (x0 x1 : Vec F S8192x128 .f32) (xo2 xo3 xo4 : Vec F S1x1x128 .f32) :
    out0_B_3 c i a2 h2 a3 h3 a4 h4 a5 h5 a6 h6 hc x0 x1 xo2 xo3 xo4 = k0_pay7 x1 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  try sl_unfold_words
  rw [View.canon_unit_zero hz3]
  simp only [View.readAt_eq_ld, h2.read_unread, h3.read_unread, h4.read_unread, h5.read_unread, h6.read_unread,
    View.ld_unit_zero (S := S1x1x128) hz3, View.ld_unit_zero (S := S8192x128) hz2]

/-- At a point that does not open a core's run, output 4's buffer ends at the accumulating store's value over what the
    point before left there: the one store covers the block, and its loads read the whole staging buffers. -/
theorem piece_B_4 (c : Dev nD) (i : grid0.Coords) (a2 : Memref sig .tc .vmem S8192x128 .f32) (h2 : a2.IsWhole) (a3 : Memref sig .tc .vmem S8192x128 .f32) (h3 : a3.IsWhole) (a4 : Memref sig .tc .vmem S1x1x128 .f32) (h4 : a4.IsWhole) (a5 : Memref sig .tc .vmem S1x1x128 .f32) (h5 : a5.IsWhole) (a6 : Memref sig .tc .vmem S1x1x128 .f32) (h6 : a6.IsWhole) (hc : ¬cond0_0 i)
    (x0 x1 : Vec F S8192x128 .f32) (xo2 xo3 xo4 : Vec F S1x1x128 .f32) :
    out0_B_4 c i a2 h2 a3 h3 a4 h4 a5 h5 a6 h6 hc x0 x1 xo2 xo3 xo4 = k0_pay8 x0 xo4 := by
  unfold out0_B_4
  rw [View.read_writes_eq_canon _ _ _ (cover0_B_4 c i a2 h2 a3 h3 a4 h4 a5 h5 a6 h6 hc x0 x1 xo2 xo3 xo4)]
  unfold kernelRun0_B
  dsimp only
  try sl_unfold_words
  rw [View.canon_unit_zero hz3]
  simp only [View.readAt_eq_ld, h2.read_unread, h3.read_unread, h4.read_unread, h5.read_unread, h6.read_unread,
    View.ld_unit_zero (S := S1x1x128) hz3, View.ld_unit_zero (S := S8192x128) hz2]

/-- At the first point of a core's run, output 2's buffer is first set to the zero block and then accumulated into:
    the second store covers the block and reads the first one back, so the buffer's earlier contents do not enter. -/
theorem piece_A_2 (c : Dev nD) (i : grid0.Coords) (a2 : Memref sig .tc .vmem S8192x128 .f32) (h2 : a2.IsWhole) (a3 : Memref sig .tc .vmem S8192x128 .f32) (h3 : a3.IsWhole) (a4 : Memref sig .tc .vmem S1x1x128 .f32) (h4 : a4.IsWhole) (a5 : Memref sig .tc .vmem S1x1x128 .f32) (h5 : a5.IsWhole) (a6 : Memref sig .tc .vmem S1x1x128 .f32) (h6 : a6.IsWhole) (hc : cond0_0 i)
    (x0 x1 : Vec F S8192x128 .f32) :
    out0_A_2 c i a2 h2 a3 h3 a4 h4 a5 h5 a6 h6 hc x0 x1 = k0_pay6 x0 x1 (k0_pay1 (F := F)) := by
  unfold out0_A_2
  rw [View.read_writes_eq_canon _ _ _ (cover0_A_2 c i a2 h2 a3 h3 a4 h4 a5 h5 a6 h6 hc x0 x1)]
  unfold kernelRun0_A
  dsimp only
  try sl_unfold_words
  rw [View.canon_cons_unit_zero (S := S1x1x128) hz3, View.readCov_unit_zero (S := S1x1x128) _ hz3]
  simp only [View.readAt_eq_ld, h2.read_unread, h3.read_unread, h4.read_unread, h5.read_unread, h6.read_unread,
    View.ld_unit_zero (S := S1x1x128) hz3, View.ld_unit_zero (S := S8192x128) hz2]

/-- At the first point of a core's run, output 3's buffer is first set to the zero block and then accumulated into:
    the second store covers the block and reads the first one back, so the buffer's earlier contents do not enter. -/
theorem piece_A_3 (c : Dev nD) (i : grid0.Coords) (a2 : Memref sig .tc .vmem S8192x128 .f32) (h2 : a2.IsWhole) (a3 : Memref sig .tc .vmem S8192x128 .f32) (h3 : a3.IsWhole) (a4 : Memref sig .tc .vmem S1x1x128 .f32) (h4 : a4.IsWhole) (a5 : Memref sig .tc .vmem S1x1x128 .f32) (h5 : a5.IsWhole) (a6 : Memref sig .tc .vmem S1x1x128 .f32) (h6 : a6.IsWhole) (hc : cond0_0 i)
    (x0 x1 : Vec F S8192x128 .f32) :
    out0_A_3 c i a2 h2 a3 h3 a4 h4 a5 h5 a6 h6 hc x0 x1 = k0_pay7 x1 (k0_pay2 (F := F)) := by
  unfold out0_A_3
  rw [View.read_writes_eq_canon _ _ _ (cover0_A_3 c i a2 h2 a3 h3 a4 h4 a5 h5 a6 h6 hc x0 x1)]
  unfold kernelRun0_A
  dsimp only
  try sl_unfold_words
  rw [View.canon_cons_unit_zero (S := S1x1x128) hz3, View.readCov_unit_zero (S := S1x1x128) _ hz3]
  simp only [View.readAt_eq_ld, h2.read_unread, h3.read_unread, h4.read_unread, h5.read_unread, h6.read_unread,
    View.ld_unit_zero (S := S1x1x128) hz3, View.ld_unit_zero (S := S8192x128) hz2]

/-- At the first point of a core's run, output 4's buffer is first set to the zero block and then accumulated into:
    the second store covers the block and reads the first one back, so the buffer's earlier contents do not enter. -/
theorem piece_A_4 (c : Dev nD) (i : grid0.Coords) (a2 : Memref sig .tc .vmem S8192x128 .f32) (h2 : a2.IsWhole) (a3 : Memref sig .tc .vmem S8192x128 .f32) (h3 : a3.IsWhole) (a4 : Memref sig .tc .vmem S1x1x128 .f32) (h4 : a4.IsWhole) (a5 : Memref sig .tc .vmem S1x1x128 .f32) (h5 : a5.IsWhole) (a6 : Memref sig .tc .vmem S1x1x128 .f32) (h6 : a6.IsWhole) (hc : cond0_0 i)
    (x0 x1 : Vec F S8192x128 .f32) :
    out0_A_4 c i a2 h2 a3 h3 a4 h4 a5 h5 a6 h6 hc x0 x1 = k0_pay8 x0 (k0_pay3 (F := F)) := by
  unfold out0_A_4
  rw [View.read_writes_eq_canon _ _ _ (cover0_A_4 c i a2 h2 a3 h3 a4 h4 a5 h5 a6 h6 hc x0 x1)]
  unfold kernelRun0_A
  dsimp only
  try sl_unfold_words
  rw [View.canon_cons_unit_zero (S := S1x1x128) hz3, View.readCov_unit_zero (S := S1x1x128) _ hz3]
  simp only [View.readAt_eq_ld, h2.read_unread, h3.read_unread, h4.read_unread, h5.read_unread, h6.read_unread,
    View.ld_unit_zero (S := S1x1x128) hz3, View.ld_unit_zero (S := S8192x128) hz2]

end Cert.KernelIdeal.ColSum

end
-- ==== Proof.KLaneSum.lean ====
/-
  The body's three accumulating stores are one operation: add to a block of 128 lanes the lane sums of an
  8192 × 128 block (over its rows). At the exact extended reals that operation, read at lane l, is the accumulator's
  entry plus the sum over the 8192 rows of the block's entries in column l; and the block the body starts a run from
  is zero at every lane.
-/
import proofs.«109113_j42863773614715_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

open Idealize.ShloMosaic.ValueIdx

namespace Cert.KernelIdeal.ColSum

open Cert.KernelIdeal Cert.KernelIdeal.Gen

variable {F : FTy → Type} [FloatOps F]

/-- Add to the block `acc` the sums over the rows of `v`, lane by lane (the row sums pass through two changes of shape
    that only add unit axes). -/
def addLaneSums (v : FVec F S8192x128 .f32) (acc : Vec F S1x1x128 .f32) : FVec F S1x1x128 .f32 :=
  addf (shapeCast S1x1x128 acc shapeCasts_S1x1x128_S1x1x128)
    (shapeCast S1x1x128 (shapeCast S1x128 (multiReduction .add [0] S128 v 0x00000000#32 reduces_S8192x128_S128 (.inl rfl) rfl)
      shapeCasts_S128_S1x128) shapeCasts_S1x128_S1x1x128)

/-- The zero block a run starts from. -/
def zeroBlock : FVec F S1x1x128 .f32 := broadcast S1x1x128 (Scalar.ofBits .f32 0x00000000#32)

/-- The first output accumulates the lane sums of the product of the two input blocks, -/
theorem pay6_eq (x0 x1 : Vec F S8192x128 .f32) (acc : Vec F S1x1x128 .f32) :
    k0_pay6 x0 x1 acc = addLaneSums (mulf (x0 : FVec F S8192x128 .f32) x1) acc := by
  unfold k0_pay6 k0_pay4 k0_pay5 addLaneSums
  simp only [shapeCast_self]

/-- the second those of the second input block, -/
theorem pay7_eq (x1 : Vec F S8192x128 .f32) (acc : Vec F S1x1x128 .f32) :
    k0_pay7 x1 acc = addLaneSums (x1 : FVec F S8192x128 .f32) acc := by
  unfold k0_pay7 k0_pay5 addLaneSums
  simp only [shapeCast_self]

/-- the third those of the first. -/
theorem pay8_eq (x0 : Vec F S8192x128 .f32) (acc : Vec F S1x1x128 .f32) :
    k0_pay8 x0 acc = addLaneSums (x0 : FVec F S8192x128 .f32) acc := by
  unfold k0_pay8 k0_pay4 addLaneSums
  simp only [shapeCast_self]

theorem pay1_eq : k0_pay1 (F := F) = zeroBlock := rfl
theorem pay2_eq : k0_pay2 (F := F) = zeroBlock := rfl
theorem pay3_eq : k0_pay3 (F := F) = zeroBlock := rfl

/-- Adding a leading unit axis to a row of 128 lanes keeps each lane's entry, -/
theorem cast_row {α : Type} (y : S128.Idx → α) (h : S128.ShapeCasts S1x128) (l : Fin 128) :
    shapeCast S1x128 y h (ix2 (0 : Fin 1) l) = y (ix1 l) :=
  shapeCast_apply y h _ _ (by rw [Shape.rowMajor_val_one, Shape.rowMajor_val_two]; show l.val = 0 * 128 + l.val; omega)

/-- and so does adding a second one. -/
theorem cast_block {α : Type} (y : S1x128.Idx → α) (h : S1x128.ShapeCasts S1x1x128) (l : Fin 128) :
    shapeCast S1x1x128 y h (ix3 (0 : Fin 1) (0 : Fin 1) l) = y (ix2 (0 : Fin 1) l) :=
  shapeCast_apply y h _ _ (by rw [Shape.rowMajor_val_two, Shape.rowMajor_val_three]; show 0 * 128 + l.val = (0 * 1 + 0) * 128 + l.val; omega)

/-- At the exact extended reals: lane `l` of the result is the accumulator's lane `l` plus the sum over the 8192
    rows of column `l` of the block. -/
theorem addLaneSums_apply (v : FVec Ideal S8192x128 .f32) (acc : Vec Ideal S1x1x128 .f32) (l : Fin 128) :
    addLaneSums (F := Ideal) v acc (ix3 (0 : Fin 1) (0 : Fin 1) l)
      = acc (ix3 (0 : Fin 1) (0 : Fin 1) l) + ∑ r : Fin 8192, v (ix2 r l) := by
  unfold addLaneSums
  rw [addf_apply, shapeCast_self, cast_block, cast_row]
  refine congrArg (acc (ix3 (0 : Fin 1) (0 : Fin 1) l) + ·) ?_
  refine (Ideal.multiReduction_add_single v 0x00000000#32 reduces_S8192x128_S128 (.inl rfl) rfl (ix1 l)).trans ?_
  exact Finset.sum_congr rfl fun k _ => congrArg v (funext fun a => Fin.ext (by match a with | ⟨0, _⟩ => rfl | ⟨1, _⟩ => rfl))

/-- The zero block is zero at every lane. -/
theorem zeroBlock_apply (j : S1x1x128.Idx) : zeroBlock (F := Ideal) j = 0 := by
  show Ideal.ofBits .f32 0x00000000#32 = 0
  exact Ideal.ofBits_zero_f32

end Cert.KernelIdeal.ColSum

end
-- ==== Proof.KBlocks.lean ====
/-
  What the kernel's two input windows hold at a grid point, in terms of the argument arrays.

  Each argument array of 4194304 rows of 16 entries is first viewed as 524288 rows of 128 lanes: row R, lane L of the
  view is row 8·R + L / 16, column L % 16 of the argument (both sit at the same row-major position). The grid is 2 cores by 32
  steps, walked core-major, so the point numbered t = 32·core + step stages rows 8192·t … 8192·t + 8191 of the view.
-/
import proofs.«109113_j42863773614715_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

open Idealize.ShloMosaic.ValueIdx

namespace Cert.KernelIdeal.ColSum

open Cert.KernelIdeal Cert.KernelIdeal.Gen

variable {F : FTy → Type} [FloatOps F]
variable (m : (ℓ : Loc nD τ sig) → Buf (Elt F) ℓ)

/-- Row R, lane L of the 524288 × 128 view of an argument array is its row 8·R + L / 16, column L % 16. -/
theorem view_apply {α : Type} (x : S4194304x16.Idx → α) (h : S4194304x16.ShapeCasts S524288x128) (R : Fin 524288) (L : Fin 128) :
    shapeCast S524288x128 x h (ix2 R L)
      = x (ix2 (⟨8 * R.val + L.val / 16, by have := R.isLt; have := L.isLt; omega⟩ : Fin 4194304)
            (⟨L.val % 16, Nat.mod_lt _ (by decide)⟩ : Fin 16)) :=
  shapeCast_apply x h _ _ (by
    rw [Shape.rowMajor_val_two, Shape.rowMajor_val_two]
    show (8 * R.val + L.val / 16) * 16 + L.val % 16 = R.val * 128 + L.val
    omega)

/-- The first window's array, as the region finds it, is the view of the first argument, -/
theorem entry_v0 (c : Dev nD) :
    (V m c main_v0 : S524288x128.Idx → Elt F .f32)
      = shapeCast S524288x128 (m ((c : Thread nD τ).loc main_arg0)) shapeCasts_S4194304x16_S524288x128 := by
  show StableHlo.after hostOps0 (fun b => m (c, b)) (Proc.devRef .tc main_v0) = _
  after_results
  rfl

/-- and the second window's that of the second. -/
theorem entry_v1 (c : Dev nD) :
    (V m c main_v1 : S524288x128.Idx → Elt F .f32)
      = shapeCast S524288x128 (m ((c : Thread nD τ).loc main_arg1)) shapeCasts_S4194304x16_S524288x128 := by
  show StableHlo.after hostOps0 (fun b => m (c, b)) (Proc.devRef .tc main_v1) = _
  after_results
  rfl

/-- Both input windows' block index at point t is (t, 0): decided over the 64 points. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The point's block of the first window, as a block of literal extents. -/
def inBlk0 (c : Dev nD) (n : ℕ) (h : n < cfg0.N) : Vec F S8192x128 .f32 := iblk m c 0 ⟨n, h⟩
/-- The point's block of the second window. -/
def inBlk1 (c : Dev nD) (n : ℕ) (h : n < cfg0.N) : Vec F S8192x128 .f32 := iblk m c 1 ⟨n, h⟩

theorem row_lt {n : ℕ} (h : n < cfg0.N) (r : Fin 8192) : 8192 * n + r.val < 524288 := by
  have hN : n < 64 := lt_of_lt_of_eq h (show cfg0.N = 64 from N_0)
  have := r.isLt; omega

/-- Row r, lane l of point n's first block is row 8192·n + r, lane l of the first argument's view. -/
theorem inBlk0_apply (c : Dev nD) (n : ℕ) (h : n < cfg0.N) (r : Fin 8192) (l : Fin 128) :
    inBlk0 m c n h (ix2 r l)
      = shapeCast S524288x128 (m ((c : Thread nD τ).loc main_arg0)) shapeCasts_S4194304x16_S524288x128
          (ix2 (⟨8192 * n + r.val, row_lt h r⟩ : Fin 524288) l) := by
  obtain ⟨e0, e1, -, -⟩ := in_index ⟨n, h⟩
  rw [← entry_v0 m c]
  unfold inBlk0 iblk
  rw [View.read_apply]
  show V m c main_v0 _ = V m c main_v0 _
  refine congrArg (V m c main_v0) (funext fun a => Fin.ext ?_)
  match a with
  | ⟨0, _⟩ => show win0_0.index ⟨n, h⟩ 0 * 8192 + 1 * r.val = 8192 * n + r.val; rw [e0]; show n * 8192 + 1 * r.val = _; omega
  | ⟨1, _⟩ => show win0_0.index ⟨n, h⟩ 1 * 128 + 1 * l.val = l.val; rw [e1]; omega

/-- The same for the second block and the second argument. -/
theorem inBlk1_apply (c : Dev nD) (n : ℕ) (h : n < cfg0.N) (r : Fin 8192) (l : Fin 128) :
    inBlk1 m c n h (ix2 r l)
      = shapeCast S524288x128 (m ((c : Thread nD τ).loc main_arg1)) shapeCasts_S4194304x16_S524288x128
          (ix2 (⟨8192 * n + r.val, row_lt h r⟩ : Fin 524288) l) := by
  obtain ⟨-, -, e0, e1⟩ := in_index ⟨n, h⟩
  rw [← entry_v1 m c]
  unfold inBlk1 iblk
  rw [View.read_apply]
  show V m c main_v1 _ = V m c main_v1 _
  refine congrArg (V m c main_v1) (funext fun a => Fin.ext ?_)
  match a with
  | ⟨0, _⟩ => show win0_1.index ⟨n, h⟩ 0 * 8192 + 1 * r.val = 8192 * n + r.val; rw [e0]; show n * 8192 + 1 * r.val = _; omega
  | ⟨1, _⟩ => show win0_1.index ⟨n, h⟩ 1 * 128 + 1 * l.val = l.val; rw [e1]; omega

end Cert.KernelIdeal.ColSum

end
-- ==== Proof.KFold.lean ====
/-
  The three outputs' buffers, point by point, as folds over a core's run of 32 points.

  A core's run starts at the points numbered 0 and 32, where the body starts from the zero block; every other point adds
  its lane sums to what the point before left. So after point t the buffer holds the fold of the run from 32·(t / 32)
  up to t — by induction along the run, not by enumerating the grid.
-/
import proofs.«109113_j42863773614715_2_alg».proof.Proof.KPieces
import proofs.«109113_j42863773614715_2_alg».proof.Proof.KLaneSum
import proofs.«109113_j42863773614715_2_alg».proof.Proof.KBlocks

noncomputable section

open Idealize.ShloMosaic Idealize.ShloMosaic.TcCoe Idealize.SL.Sem
open Idealize.ShloMosaic.Pipeline (Dat)

namespace Cert.KernelIdeal.ColSum

open Cert.KernelIdeal Cert.KernelIdeal.Gen

variable {F : FTy → Type} [FloatOps F]
variable (m : (ℓ : Loc nD τ sig) → Buf (Elt F) ℓ)

/-- The block point `n` sums into output 2: the products of the two input blocks' entries. -/
def blkProd (c : Dev nD) (n : ℕ) (h : n < cfg0.N) : FVec F S8192x128 .f32 := (mulf (inBlk0 m c n h : FVec F S8192x128 .f32) (inBlk1 m c n h))

/-- Output 2's buffer after point `t` is the fold of its core's run up to `t`: the zero block plus the lane sums of
    the run's first point, then each later point's lane sums added to what the point before left. -/
theorem runProd_eq (c : Dev nD) (t : Fin cfg0.N) :
    (outsAt0 m c t.val t.isLt).1
      = Pipeline.accAt (fun n h => addLaneSums (blkProd m c n h) zeroBlock) (fun n h acc => addLaneSums (blkProd m c n h) acc)
          (32 * (t.val / 32)) (t.val % 32) (by have h1 := t.isLt; have h2 := Nat.div_add_mod t.val 32; omega) :=
  Pipeline.eq_accAt_of_mod (fun n h => (outsAt0 m c n h).1) 32
    (fun n h => addLaneSums (blkProd m c n h) zeroBlock) (fun n h acc => addLaneSums (blkProd m c n h) acc)
    (fun n h hn => by
      rw [outsAt0_A m c ⟨n, h⟩ hn]
      dsimp only
      exact (piece_A_2 (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hn) (inBlk0 m c n h) (inBlk1 m c n h)).trans
        (pay6_eq (F := F) (inBlk0 m c n h) (inBlk1 m c n h) zeroBlock))
    (fun n h hn => by
      rw [outsAt0_B m c ⟨n + 1, h⟩ hn]
      dsimp only
      exact (piece_B_2 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hn ((hcond0_0 ⟨n + 1, h⟩).mp hh)) (inBlk0 m c (n + 1) h) (inBlk1 m c (n + 1) h)
          (outsAt0 m c n (Nat.lt_of_succ_lt h)).1 (outsAt0 m c n (Nat.lt_of_succ_lt h)).2.1 (outsAt0 m c n (Nat.lt_of_succ_lt h)).2.2).trans
        (pay6_eq (F := F) (inBlk0 m c (n + 1) h) (inBlk1 m c (n + 1) h) (outsAt0 m c n (Nat.lt_of_succ_lt h)).1))
    (by decide) t.val t.isLt _

/-- The block point `n` sums into output 3: the second input block's entries. -/
def blkGt (c : Dev nD) (n : ℕ) (h : n < cfg0.N) : FVec F S8192x128 .f32 := (inBlk1 m c n h : FVec F S8192x128 .f32)

/-- Output 3's buffer after point `t` is the fold of its core's run up to `t`: the zero block plus the lane sums of
    the run's first point, then each later point's lane sums added to what the point before left. -/
theorem runGt_eq (c : Dev nD) (t : Fin cfg0.N) :
    (outsAt0 m c t.val t.isLt).2.1
      = Pipeline.accAt (fun n h => addLaneSums (blkGt m c n h) zeroBlock) (fun n h acc => addLaneSums (blkGt m c n h) acc)
          (32 * (t.val / 32)) (t.val % 32) (by have h1 := t.isLt; have h2 := Nat.div_add_mod t.val 32; omega) :=
  Pipeline.eq_accAt_of_mod (fun n h => (outsAt0 m c n h).2.1) 32
    (fun n h => addLaneSums (blkGt m c n h) zeroBlock) (fun n h acc => addLaneSums (blkGt m c n h) acc)
    (fun n h hn => by
      rw [outsAt0_A m c ⟨n, h⟩ hn]
      dsimp only
      exact (piece_A_3 (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hn) (inBlk0 m c n h) (inBlk1 m c n h)).trans
        (pay7_eq (F := F) (inBlk1 m c n h) zeroBlock))
    (fun n h hn => by
      rw [outsAt0_B m c ⟨n + 1, h⟩ hn]
      dsimp only
      exact (piece_B_3 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hn ((hcond0_0 ⟨n + 1, h⟩).mp hh)) (inBlk0 m c (n + 1) h) (inBlk1 m c (n + 1) h)
          (outsAt0 m c n (Nat.lt_of_succ_lt h)).1 (outsAt0 m c n (Nat.lt_of_succ_lt h)).2.1 (outsAt0 m c n (Nat.lt_of_succ_lt h)).2.2).trans
        (pay7_eq (F := F) (inBlk1 m c (n + 1) h) (outsAt0 m c n (Nat.lt_of_succ_lt h)).2.1))
    (by decide) t.val t.isLt _

/-- The block point `n` sums into output 4: the first input block's entries. -/
def blkPred (c : Dev nD) (n : ℕ) (h : n < cfg0.N) : FVec F S8192x128 .f32 := (inBlk0 m c n h : FVec F S8192x128 .f32)

/-- Output 4's buffer after point `t` is the fold of its core's run up to `t`: the zero block plus the lane sums of
    the run's first point, then each later point's lane sums added to what the point before left. -/
theorem runPred_eq (c : Dev nD) (t : Fin cfg0.N) :
    (outsAt0 m c t.val t.isLt).2.2
      = Pipeline.accAt (fun n h => addLaneSums (blkPred m c n h) zeroBlock) (fun n h acc => addLaneSums (blkPred m c n h) acc)
          (32 * (t.val / 32)) (t.val % 32) (by have h1 := t.isLt; have h2 := Nat.div_add_mod t.val 32; omega) :=
  Pipeline.eq_accAt_of_mod (fun n h => (outsAt0 m c n h).2.2) 32
    (fun n h => addLaneSums (blkPred m c n h) zeroBlock) (fun n h acc => addLaneSums (blkPred m c n h) acc)
    (fun n h hn => by
      rw [outsAt0_A m c ⟨n, h⟩ hn]
      dsimp only
      exact (piece_A_4 (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hn) (inBlk0 m c n h) (inBlk1 m c n h)).trans
        (pay8_eq (F := F) (inBlk0 m c n h) zeroBlock))
    (fun n h hn => by
      rw [outsAt0_B m c ⟨n + 1, h⟩ hn]
      dsimp only
      exact (piece_B_4 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hn ((hcond0_0 ⟨n + 1, h⟩).mp hh)) (inBlk0 m c (n + 1) h) (inBlk1 m c (n + 1) h)
          (outsAt0 m c n (Nat.lt_of_succ_lt h)).1 (outsAt0 m c n (Nat.lt_of_succ_lt h)).2.1 (outsAt0 m c n (Nat.lt_of_succ_lt h)).2.2).trans
        (pay8_eq (F := F) (inBlk0 m c (n + 1) h) (outsAt0 m c n (Nat.lt_of_succ_lt h)).2.2))
    (by decide) t.val t.isLt _

end Cert.KernelIdeal.ColSum

end
-- ==== Proof.SumRegroup.lean ====
/-
  The one law that joins the two programs: a sum over the 4194304 rows of an array, taken in the kernel's order.

  The kernel views row R of the array as packed sub-row s = R % 8 of view row R / 8, gives view row 8192·n + r to
  grid point n = 32·i + j (core i, step j) as row r of that point's block, sums each block's rows, then the steps of a core, then
  the cores, and last the 8 packed sub-rows. Every row 8·(8192·(32·i + j) + r) + s with s < 8, i < 2, j < 32, r < 8192 is met
  exactly once, so in a commutative monoid — no cancelling, no distributing: the extended reals qualify — the nested sum
  is the plain sum over all rows.
-/
import Mathlib.Algebra.BigOperators.Group.Finset.Basic
import Mathlib.Algebra.BigOperators.Fin
import Mathlib.Tactic.Ring

namespace Cert.ColSumLaw

open Finset

variable {M : Type*} [AddCommMonoid M]

/-- A sum over `a·b` consecutive naturals is the sum over `a` runs of `b`. -/
theorem sum_range_mul (f : ℕ → M) (a b : ℕ) :
    ∑ k ∈ range (a * b), f k = ∑ i ∈ range a, ∑ j ∈ range b, f (i * b + j) := by
  induction a with
  | zero => simp
  | succ a ih => rw [Nat.succ_mul, sum_range_add, ih, sum_range_succ]

/-- The kernel's order of summation meets every one of the 4194304 rows exactly once. -/
theorem regroup (g : ℕ → M) :
    ∑ s ∈ range 8, ∑ i ∈ range 2, ∑ j ∈ range 32, ∑ r ∈ range 8192, g (8 * (8192 * (32 * i + j) + r) + s)
      = ∑ R ∈ range 4194304, g R := by
  have h1 : ∑ R ∈ range 4194304, g R = ∑ v ∈ range 524288, ∑ s ∈ range 8, g (v * 8 + s) :=
    sum_range_mul g 524288 8
  have h2 : ∑ v ∈ range 524288, ∑ s ∈ range 8, g (v * 8 + s)
      = ∑ n ∈ range 64, ∑ r ∈ range 8192, ∑ s ∈ range 8, g ((n * 8192 + r) * 8 + s) :=
    sum_range_mul (fun v => ∑ s ∈ range 8, g (v * 8 + s)) 64 8192
  have h3 : ∑ n ∈ range 64, ∑ r ∈ range 8192, ∑ s ∈ range 8, g ((n * 8192 + r) * 8 + s)
      = ∑ i ∈ range 2, ∑ j ∈ range 32, ∑ r ∈ range 8192, ∑ s ∈ range 8, g (((i * 32 + j) * 8192 + r) * 8 + s) :=
    sum_range_mul (fun n => ∑ r ∈ range 8192, ∑ s ∈ range 8, g ((n * 8192 + r) * 8 + s)) 2 32
  calc ∑ s ∈ range 8, ∑ i ∈ range 2, ∑ j ∈ range 32, ∑ r ∈ range 8192, g (8 * (8192 * (32 * i + j) + r) + s)
      = ∑ i ∈ range 2, ∑ s ∈ range 8, ∑ j ∈ range 32, ∑ r ∈ range 8192, g (8 * (8192 * (32 * i + j) + r) + s) := sum_comm
    _ = ∑ i ∈ range 2, ∑ j ∈ range 32, ∑ s ∈ range 8, ∑ r ∈ range 8192, g (8 * (8192 * (32 * i + j) + r) + s) :=
        sum_congr rfl fun i _ => sum_comm
    _ = ∑ i ∈ range 2, ∑ j ∈ range 32, ∑ r ∈ range 8192, ∑ s ∈ range 8, g (8 * (8192 * (32 * i + j) + r) + s) :=
        sum_congr rfl fun i _ => sum_congr rfl fun j _ => sum_comm
    _ = ∑ i ∈ range 2, ∑ j ∈ range 32, ∑ r ∈ range 8192, ∑ s ∈ range 8, g (((i * 32 + j) * 8192 + r) * 8 + s) :=
        sum_congr rfl fun i _ => sum_congr rfl fun j _ => sum_congr rfl fun r _ => sum_congr rfl fun s _ =>
          congrArg g (by ring)
    _ = ∑ R ∈ range 4194304, g R := (h1.trans (h2.trans h3)).symm

end Cert.ColSumLaw
-- ==== Proof.Spec.lean ====
/-
  What both programs compute, stated once over the argument arrays.

  For arrays pred and gt of 4194304 rows and 16 columns the results are, for each column c, the three column sums
      inter c = Σ_R pred(R, c) · gt(R, c),   gtSum c = Σ_R gt(R, c),   predSum c = Σ_R pred(R, c)
  over all rows R, and the two quotients (inter + ε) / (predSum + ε) and (inter + ε) / (gtSum + ε). An array's entries are
  read through a function of two naturals (zero outside the array) so that the sums are sums over ranges of naturals
  and re-indexing them is arithmetic.
-/
import Idealize.ShloMosaic.PureOps.Ideal
import Idealize.ShloMosaic.Lib.ValueIdx
import proofs.«109113_j42863773614715_2_alg».proof.Proof.SumRegroup

noncomputable section

open Idealize.ShloMosaic Idealize.ShloMosaic.ValueIdx

namespace Cert.ColSumSpec

/-- An argument array at the exact instance: 4194304 rows of 16 extended reals. -/
abbrev Arr : Type := (⟨2, ![4194304, 16]⟩ : Shape).Idx → Ideal .f32

/-- A result vector: 16 extended reals. -/
abbrev Row : Type := (⟨1, ![16]⟩ : Shape).Idx → Ideal .f32

/-- The array's entry at row R, column c, for any two naturals (zero outside the array). -/
def entry (x : Arr) (R c : ℕ) : EReal :=
  if h : R < 4194304 ∧ c < 16 then x (ix2 (⟨R, h.1⟩ : Fin 4194304) (⟨c, h.2⟩ : Fin 16)) else 0

theorem entry_of (x : Arr) (R : Fin 4194304) (c : Fin 16) : entry x R.val c.val = x (ix2 R c) :=
  dif_pos ⟨R.isLt, c.isLt⟩

/-- The three per-row quantities that are summed: the product of the two arrays' entries, and each array's entry. -/
def prodAt (p g : Arr) (R c : ℕ) : EReal := entry p R c * entry g R c

/-- A per-row quantity summed over all 4194304 rows, in column c. -/
def colSum (e : ℕ → ℕ → EReal) (c : ℕ) : EReal := ∑ R ∈ Finset.range 4194304, e R c

/-- What one grid point adds at lane l of its output block: the sum over its block's 8192 rows; row r of point n's
    block, lane l, is row 8·(8192·n + r) + l / 16, column l % 16 of the array. -/
def pointSum (e : ℕ → ℕ → EReal) (n l : ℕ) : EReal :=
  ∑ r ∈ Finset.range 8192, e (8 * (8192 * n + r) + l / 16) (l % 16)

/-- What core i's output block ends holding at lane l: the sum of its 32 points' contributions. -/
def coreSum (e : ℕ → ℕ → EReal) (i l : ℕ) : EReal := ∑ j ∈ Finset.range 32, pointSum e (32 * i + j) l

/-- The column sum as the kernel's program takes it: over the 8 packed sub-rows of lane 16·s + c, over the two cores. -/
def colSumK (e : ℕ → ℕ → EReal) (c : ℕ) : EReal :=
  ∑ s ∈ Finset.range 8, ∑ i ∈ Finset.range 2, coreSum e i (16 * s + c)

/-- The two orders give the same sum (for a column c < 16, so that lane 16·s + c unpacks to sub-row s, column c). -/
theorem colSumK_eq (e : ℕ → ℕ → EReal) (c : ℕ) (hc : c < 16) : colSumK e c = colSum e c := by
  unfold colSumK coreSum pointSum colSum
  rw [← Cert.ColSumLaw.regroup (fun R => e R c)]
  refine Finset.sum_congr rfl fun s _ => Finset.sum_congr rfl fun i _ => Finset.sum_congr rfl fun j _ =>
    Finset.sum_congr rfl fun r _ => ?_
  rw [show (16 * s + c) / 16 = s from by omega, show (16 * s + c) % 16 = c from by omega]

/-- The three column sums as result vectors. -/
def interRow (p g : Arr) : Row := fun j => colSum (prodAt p g) (j 0).val
def gtRow (g : Arr) : Row := fun j => colSum (entry g) (j 0).val
def predRow (p : Arr) : Row := fun j => colSum (entry p) (j 0).val

/-- The small constant both programs add to numerator and denominator (the same 32-bit word in both, so its exact value
    never matters). -/
def eps : EReal := Ideal.ofBits .f32 0x358637BD#32

/-- The smoothed quotient, entry by entry: (a + ε) / (b + ε). -/
def ratio (a b : Row) : Row := fun j => Ideal.div (a j + eps) (b j + eps)

end Cert.ColSumSpec

end
-- ==== Proof.KSums.lean ====
/-
  The folds, summed. At the exact extended reals a core's running block after a point is, lane by lane, the sum of the
  contributions of the run's points so far; each point's contribution is the sum over its block's rows of the summed
  quantity, read from the argument arrays.
-/
import proofs.«109113_j42863773614715_2_alg».proof.Proof.KFold
import proofs.«109113_j42863773614715_2_alg».proof.Proof.Spec

noncomputable section

open Idealize.ShloMosaic Idealize.ShloMosaic.TcCoe Idealize.SL.Sem
open Idealize.ShloMosaic.Pipeline (Dat)

open Idealize.ShloMosaic.ValueIdx

namespace Cert.KernelIdeal.ColSum

open Cert.KernelIdeal Cert.KernelIdeal.Gen Cert.ColSumSpec

variable (m : (ℓ : Loc nD τ sig) → Buf (Elt Ideal) ℓ)

/-- The two argument arrays on core `c`. -/
abbrev predArr (c : Dev nD) : Arr := m ((c : Thread nD τ).loc main_arg0)
abbrev gtArr (c : Dev nD) : Arr := m ((c : Thread nD τ).loc main_arg1)

/-- Row r, lane l of point n's first block is the first argument's entry at row 8·(8192·n + r) + l / 16, column l % 16; -/
theorem blkPred_entry (c : Dev nD) (n : ℕ) (h : n < cfg0.N) (r : Fin 8192) (l : Fin 128) :
    blkPred m c n h (ix2 r l) = entry (predArr m c) (8 * (8192 * n + r.val) + l.val / 16) (l.val % 16) := by
  unfold blkPred
  rw [inBlk0_apply, view_apply]
  exact (entry_of _ _ _).symm

/-- the second block's is the second argument's; -/
theorem blkGt_entry (c : Dev nD) (n : ℕ) (h : n < cfg0.N) (r : Fin 8192) (l : Fin 128) :
    blkGt m c n h (ix2 r l) = entry (gtArr m c) (8 * (8192 * n + r.val) + l.val / 16) (l.val % 16) := by
  unfold blkGt
  rw [inBlk1_apply, view_apply]
  exact (entry_of _ _ _).symm

/-- and the product block's is the product of the two. -/
theorem blkProd_entry (c : Dev nD) (n : ℕ) (h : n < cfg0.N) (r : Fin 8192) (l : Fin 128) :
    blkProd m c n h (ix2 r l) = prodAt (predArr m c) (gtArr m c) (8 * (8192 * n + r.val) + l.val / 16) (l.val % 16) := by
  unfold blkProd prodAt
  rw [mulf_apply, inBlk0_apply, inBlk1_apply, view_apply, view_apply]
  exact congrArg₂ (· * ·) (entry_of _ _ _).symm (entry_of _ _ _).symm

/-- Adding a block's lane sums, at any index of the 1 × 1 × 128 block (its first two coordinates are 0). -/
theorem addLaneSums_at (v : FVec Ideal S8192x128 .f32) (acc : Vec Ideal S1x1x128 .f32) (j : S1x1x128.Idx) :
    addLaneSums (F := Ideal) v acc j = acc j + ∑ r : Fin 8192, v (ix2 r (j 2)) := by
  obtain ⟨a, b, l, rfl⟩ : ∃ (a : Fin 1) (b : Fin 1) (l : Fin 128), j = ix3 a b l := ⟨j 0, j 1, j 2, eq_ix3 j⟩
  obtain rfl : a = 0 := Subsingleton.elim _ _
  obtain rfl : b = 0 := Subsingleton.elim _ _
  exact addLaneSums_apply v acc l

/-- A block whose entries are the quantity `e` read at the point's rows has, as lane sums, the point's contribution. -/
theorem laneSum_eq (v : FVec Ideal S8192x128 .f32) (e : ℕ → ℕ → EReal) (n : ℕ)
    (hE : ∀ (r : Fin 8192) (l : Fin 128), v (ix2 r l) = e (8 * (8192 * n + r.val) + l.val / 16) (l.val % 16))
    (l : Fin 128) : ∑ r : Fin 8192, v (ix2 r l) = pointSum e n l.val :=
  (Finset.sum_congr rfl fun r _ => hE r l).trans
    (Fin.sum_univ_eq_sum_range (fun r => e (8 * (8192 * n + r) + l.val / 16) (l.val % 16)) 8192)

/-- THE FOLD, SUMMED: for blocks whose entries are `e` at the points' rows, the fold of a run from point `b` through
    `jj` further points holds, at an index of lane l, the sum of the contributions of points b … b + jj. -/
theorem fold_at (blk : (n : ℕ) → n < cfg0.N → FVec Ideal S8192x128 .f32) (e : ℕ → ℕ → EReal)
    (hE : ∀ (n : ℕ) (h : n < cfg0.N) (r : Fin 8192) (l : Fin 128),
      blk n h (ix2 r l) = e (8 * (8192 * n + r.val) + l.val / 16) (l.val % 16))
    (b jj : ℕ) (h : b + jj < cfg0.N) (j : S1x1x128.Idx) :
    Pipeline.accAt (fun n h => addLaneSums (blk n h) (zeroBlock (F := Ideal))) (fun n h acc => addLaneSums (blk n h) acc) b jj h j
      = ∑ s ∈ Finset.range (jj + 1), pointSum e (b + s) (j 2).val := by
  have key := Pipeline.accAt_add_apply (N := cfg0.N) (ι := S1x1x128.Idx) (β := EReal)
    (fun n h => addLaneSums (blk n h) (zeroBlock (F := Ideal))) (fun n h acc => addLaneSums (blk n h) acc)
    (fun _ => (0 : EReal)) (fun n i => pointSum e n (i 2).val) b jj
    (fun hb i => by
      show addLaneSums (F := Ideal) (blk b hb) (zeroBlock (F := Ideal)) i = 0 + pointSum e b (i 2).val
      rw [addLaneSums_at, zeroBlock_apply, laneSum_eq (blk b hb) e b (hE b hb) (i 2)])
    (fun n hn acc i _ _ => by
      show addLaneSums (F := Ideal) (blk n hn) acc i = acc i + pointSum e n (i 2).val
      rw [addLaneSums_at, laneSum_eq (blk n hn) e n (hE n hn) (i 2)])
    jj le_rfl h j
  rw [key, zero_add]

end Cert.KernelIdeal.ColSum

end
-- ==== Proof.KArrays.lean ====
/-
  The three output arrays after the region. Each has one row of 128 lanes per core; row i is written back once, after
  the last point (32·i + 31) of core i's run, with the run's whole sum. So the array ends holding, at (i, 0, l), the sum of
  the contributions at lane l of points 32·i … 32·i + 31.
-/
import proofs.«109113_j42863773614715_2_alg».proof.Proof.KSums

noncomputable section

open Idealize.ShloMosaic Idealize.ShloMosaic.TcCoe Idealize.SL.Sem
open Idealize.ShloMosaic.Pipeline (Dat)

open Idealize.ShloMosaic.ValueIdx

namespace Cert.KernelIdeal.ColSum

open Cert.KernelIdeal Cert.KernelIdeal.Gen Cert.ColSumSpec

variable (m : (ℓ : Loc nD τ sig) → Buf (Elt Ideal) ℓ)

/-- An output array in closed form, for the summed quantity `e`: entry (i, 0, l) is core i's sum at lane l. -/
def outArr (e : ℕ → ℕ → EReal) : S2x1x128.Idx → Ideal .f32 := fun j => coreSum e (j 0).val (j 2).val

/-- Each output window's block index at point t is (t / 32, 0, 0) — the core —: decided over the 64 points. -/
theorem out_index : ∀ t : Fin cfg0.N,
    (win0_2.index t (0 : Fin 3) = t.val / 32 ∧ win0_2.index t (1 : Fin 3) = 0 ∧ win0_2.index t (2 : Fin 3) = 0)
    ∧ (win0_3.index t (0 : Fin 3) = t.val / 32 ∧ win0_3.index t (1 : Fin 3) = 0 ∧ win0_3.index t (2 : Fin 3) = 0)
    ∧ (win0_4.index t (0 : Fin 3) = t.val / 32 ∧ win0_4.index t (1 : Fin 3) = 0 ∧ win0_4.index t (2 : Fin 3) = 0) :=
  (by decide +kernel : ∀ t : Fin grid0.N, _)

/-! ## Output window 2 -/

/-- What a point that writes output 2 back writes is its block of the closed form: the point ends a core's run, so its
    buffer holds the whole run's sum, and its block is row `t / 32` of the array. -/
theorem flushed2_eq (c : Dev nD) (t : Fin cfg0.N) (hf : (cfg0.win 2).flush t = true) :
    (dats m 0 c).flushed 2 t = ((cfg0.win 2).blk t).view.read (Elt Ideal) (outArr (prodAt (predArr m c) (gtArr m c))) := by
  show (cfg0.win 2).cut (grid0.coords t) ((dats m 0 c).after 2 t) = _
  rw [after0_2, runProd_eq]
  have hm : t.val % 32 = 31 := (flush0_2 t).mp hf
  obtain ⟨e0, -, e2⟩ := (out_index t).1
  funext y
  rw [View.read_apply]
  have hb0 : ((((cfg0.win 2).blk t).view.emb y) 0).val = win0_2.index t 0 * 1 + 1 * (y 0).val := rfl
  have hb2 : ((((cfg0.win 2).blk t).view.emb y) 2).val = win0_2.index t 2 * 128 + 1 * (y 2).val := rfl
  have hx2 : (((cfg0.win 2).xinj (grid0.coords t) y) 2).val = (y 2).val := rfl
  have hy0 : (y 0).val = 0 := by have : (y 0).val < 1 := (y 0).isLt; omega
  refine (fold_at (blkProd m c) (prodAt (predArr m c) (gtArr m c)) (blkProd_entry m c) _ _ _ ((cfg0.win 2).xinj (grid0.coords t) y)).trans ?_
  unfold outArr coreSum
  rw [hb0, hb2, hx2, e0, e2, hy0, hm]
  refine Finset.sum_congr rfl fun j _ => ?_
  rw [show 32 * (t.val / 32 * 1 + 1 * 0) + j = 32 * (t.val / 32) + j from by omega,
    show 0 * 128 + 1 * (y 2).val = (y 2).val from by omega]

/-- Every index (i, 0, l) of output 2's array is in the block written back at the last point of core i's run. -/
theorem covered2 (i : S2x1x128.Idx) :
    ∃ t : Fin cfg0.N, (cfg0.win 2).flush t = true ∧ i ∈ ((cfg0.win 2).blk t).view.set := by
  have hN : cfg0.N = 64 := N_0
  have hi0 : (i 0).val < 2 := (i 0).isLt
  have hi1 : (i 1).val < 1 := (i 1).isLt
  have hi2 : (i 2).val < 128 := (i 2).isLt
  obtain ⟨t, ht⟩ : ∃ t : Fin cfg0.N, t.val = 32 * (i 0).val + 31 := ⟨⟨32 * (i 0).val + 31, by omega⟩, rfl⟩
  obtain ⟨e0, e1, e2⟩ := (out_index t).1
  refine ⟨t, (flush0_2 t).mpr (by omega), ?_⟩
  show i ∈ ((View.whole main_v2_0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [e0]; omega
  | ⟨1, _⟩ =>
    show win0_2.index t 1 * 1 ≤ (i 1).val ∧ (i 1).val < win0_2.index t 1 * 1 + 1
    rw [e1]; omega
  | ⟨2, _⟩ =>
    show win0_2.index t 2 * 128 ≤ (i 2).val ∧ (i 2).val < win0_2.index t 2 * 128 + 128
    rw [e2]; omega

/-- So output 2's array ends holding the closed form. -/
theorem final2 (c : Dev nD) : (dats m 0 c).arrAt 2 cfg0.N = outArr (prodAt (predArr m c) (gtArr m c)) :=
  (dats m 0 c).arrAt_eq_of_cover 2 (outArr (prodAt (predArr m c) (gtArr m c))) (fun t hf => flushed2_eq m c t hf) (fun i => covered2 i)

/-! ## Output window 3 -/

/-- What a point that writes output 3 back writes is its block of the closed form: the point ends a core's run, so its
    buffer holds the whole run's sum, and its block is row `t / 32` of the array. -/
theorem flushed3_eq (c : Dev nD) (t : Fin cfg0.N) (hf : (cfg0.win 3).flush t = true) :
    (dats m 0 c).flushed 3 t = ((cfg0.win 3).blk t).view.read (Elt Ideal) (outArr (entry (gtArr m c))) := by
  show (cfg0.win 3).cut (grid0.coords t) ((dats m 0 c).after 3 t) = _
  rw [after0_3, runGt_eq]
  have hm : t.val % 32 = 31 := (flush0_3 t).mp hf
  obtain ⟨e0, -, e2⟩ := (out_index t).2.1
  funext y
  rw [View.read_apply]
  have hb0 : ((((cfg0.win 3).blk t).view.emb y) 0).val = win0_3.index t 0 * 1 + 1 * (y 0).val := rfl
  have hb2 : ((((cfg0.win 3).blk t).view.emb y) 2).val = win0_3.index t 2 * 128 + 1 * (y 2).val := rfl
  have hx2 : (((cfg0.win 3).xinj (grid0.coords t) y) 2).val = (y 2).val := rfl
  have hy0 : (y 0).val = 0 := by have : (y 0).val < 1 := (y 0).isLt; omega
  refine (fold_at (blkGt m c) (entry (gtArr m c)) (blkGt_entry m c) _ _ _ ((cfg0.win 3).xinj (grid0.coords t) y)).trans ?_
  unfold outArr coreSum
  rw [hb0, hb2, hx2, e0, e2, hy0, hm]
  refine Finset.sum_congr rfl fun j _ => ?_
  rw [show 32 * (t.val / 32 * 1 + 1 * 0) + j = 32 * (t.val / 32) + j from by omega,
    show 0 * 128 + 1 * (y 2).val = (y 2).val from by omega]

/-- Every index (i, 0, l) of output 3's array is in the block written back at the last point of core i's run. -/
theorem covered3 (i : S2x1x128.Idx) :
    ∃ t : Fin cfg0.N, (cfg0.win 3).flush t = true ∧ i ∈ ((cfg0.win 3).blk t).view.set := by
  have hN : cfg0.N = 64 := N_0
  have hi0 : (i 0).val < 2 := (i 0).isLt
  have hi1 : (i 1).val < 1 := (i 1).isLt
  have hi2 : (i 2).val < 128 := (i 2).isLt
  obtain ⟨t, ht⟩ : ∃ t : Fin cfg0.N, t.val = 32 * (i 0).val + 31 := ⟨⟨32 * (i 0).val + 31, by omega⟩, rfl⟩
  obtain ⟨e0, e1, e2⟩ := (out_index t).2.1
  refine ⟨t, (flush0_3 t).mpr (by omega), ?_⟩
  show i ∈ ((View.whole main_v2_1).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [e0]; omega
  | ⟨1, _⟩ =>
    show win0_3.index t 1 * 1 ≤ (i 1).val ∧ (i 1).val < win0_3.index t 1 * 1 + 1
    rw [e1]; omega
  | ⟨2, _⟩ =>
    show win0_3.index t 2 * 128 ≤ (i 2).val ∧ (i 2).val < win0_3.index t 2 * 128 + 128
    rw [e2]; omega

/-- So output 3's array ends holding the closed form. -/
theorem final3 (c : Dev nD) : (dats m 0 c).arrAt 3 cfg0.N = outArr (entry (gtArr m c)) :=
  (dats m 0 c).arrAt_eq_of_cover 3 (outArr (entry (gtArr m c))) (fun t hf => flushed3_eq m c t hf) (fun i => covered3 i)

/-! ## Output window 4 -/

/-- What a point that writes output 4 back writes is its block of the closed form: the point ends a core's run, so its
    buffer holds the whole run's sum, and its block is row `t / 32` of the array. -/
theorem flushed4_eq (c : Dev nD) (t : Fin cfg0.N) (hf : (cfg0.win 4).flush t = true) :
    (dats m 0 c).flushed 4 t = ((cfg0.win 4).blk t).view.read (Elt Ideal) (outArr (entry (predArr m c))) := by
  show (cfg0.win 4).cut (grid0.coords t) ((dats m 0 c).after 4 t) = _
  rw [after0_4, runPred_eq]
  have hm : t.val % 32 = 31 := (flush0_4 t).mp hf
  obtain ⟨e0, -, e2⟩ := (out_index t).2.2
  funext y
  rw [View.read_apply]
  have hb0 : ((((cfg0.win 4).blk t).view.emb y) 0).val = win0_4.index t 0 * 1 + 1 * (y 0).val := rfl
  have hb2 : ((((cfg0.win 4).blk t).view.emb y) 2).val = win0_4.index t 2 * 128 + 1 * (y 2).val := rfl
  have hx2 : (((cfg0.win 4).xinj (grid0.coords t) y) 2).val = (y 2).val := rfl
  have hy0 : (y 0).val = 0 := by have : (y 0).val < 1 := (y 0).isLt; omega
  refine (fold_at (blkPred m c) (entry (predArr m c)) (blkPred_entry m c) _ _ _ ((cfg0.win 4).xinj (grid0.coords t) y)).trans ?_
  unfold outArr coreSum
  rw [hb0, hb2, hx2, e0, e2, hy0, hm]
  refine Finset.sum_congr rfl fun j _ => ?_
  rw [show 32 * (t.val / 32 * 1 + 1 * 0) + j = 32 * (t.val / 32) + j from by omega,
    show 0 * 128 + 1 * (y 2).val = (y 2).val from by omega]

/-- Every index (i, 0, l) of output 4's array is in the block written back at the last point of core i's run. -/
theorem covered4 (i : S2x1x128.Idx) :
    ∃ t : Fin cfg0.N, (cfg0.win 4).flush t = true ∧ i ∈ ((cfg0.win 4).blk t).view.set := by
  have hN : cfg0.N = 64 := N_0
  have hi0 : (i 0).val < 2 := (i 0).isLt
  have hi1 : (i 1).val < 1 := (i 1).isLt
  have hi2 : (i 2).val < 128 := (i 2).isLt
  obtain ⟨t, ht⟩ : ∃ t : Fin cfg0.N, t.val = 32 * (i 0).val + 31 := ⟨⟨32 * (i 0).val + 31, by omega⟩, rfl⟩
  obtain ⟨e0, e1, e2⟩ := (out_index t).2.2
  refine ⟨t, (flush0_4 t).mpr (by omega), ?_⟩
  show i ∈ ((View.whole main_v2_2).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [e0]; omega
  | ⟨1, _⟩ =>
    show win0_4.index t 1 * 1 ≤ (i 1).val ∧ (i 1).val < win0_4.index t 1 * 1 + 1
    rw [e1]; omega
  | ⟨2, _⟩ =>
    show win0_4.index t 2 * 128 ≤ (i 2).val ∧ (i 2).val < win0_4.index t 2 * 128 + 128
    rw [e2]; omega

/-- So output 4's array ends holding the closed form. -/
theorem final4 (c : Dev nD) : (dats m 0 c).arrAt 4 cfg0.N = outArr (entry (predArr m c)) :=
  (dats m 0 c).arrAt_eq_of_cover 4 (outArr (entry (predArr m c))) (fun t hf => flushed4_eq m c t hf) (fun i => covered4 i)

end Cert.KernelIdeal.ColSum

end
-- ==== Proof.KTail.lean ====
/-
  The host lines after the region. Each output array (one row of 128 lanes per core) is summed over the two cores, the
  128 lanes are viewed as 8 packed sub-rows of 16 columns, and those are summed over the sub-rows: at column c this is
  the sum over s < 8 and i < 2 of core i's sum at lane 16·s + c. Two smoothed divisions of the resulting vectors follow.
-/
import proofs.«109113_j42863773614715_2_alg».proof.Proof.KArrays
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

open Idealize.ShloMosaic.ValueIdx

namespace Cert.KernelIdeal.ColSum

open Cert.KernelIdeal Cert.KernelIdeal.Gen Cert.ColSumSpec

variable (m : (ℓ : Loc nD τ sig) → Buf (Elt Ideal) ℓ)

/-- The fold of an output array into 16 columns: over the cores, then over the 8 packed sub-rows. -/
def foldOut (o : S2x1x128.Idx → Ideal .f32) : FVec Ideal S16 .f32 :=
  Host.reduceAdd (F := Ideal)
    (shapeCast S8x16
      (Host.reduceAdd (F := Ideal) (shapeCast S2x128 o shapeCasts_S2x1x128_S2x128)
        (constant (F := Ideal) S_ .f32 0x00000000#32) reducesTo_S2x128_S128_d0 h_S_)
      shapeCasts_S128_S8x16)
    (constant (F := Ideal) S_ .f32 0x00000000#32) reducesTo_S8x16_S16_d0 h_S_

/-- The program's smoothed division of two vectors of 16. -/
def smoothDiv (a b : FVec Ideal S16 .f32) : FVec Ideal S16 .f32 :=
  Host.divf (F := Ideal) (addf a (broadcastInDim S16 ![] bcast_S_S16 (constant (F := Ideal) S_ .f32 0x358637BD#32)))
    (addf b (broadcastInDim S16 ![] bcast_S_S16 (constant (F := Ideal) S_ .f32 0x358637BD#32)))

/-- The host's sum over the two cores, from zero, at lane L. -/
theorem sum_cores (y : FVec Ideal S2x128 .f32) (L : Fin 128) :
    Host.reduceAdd (F := Ideal) y (constant (F := Ideal) S_ .f32 0x00000000#32) reducesTo_S2x128_S128_d0 h_S_ (ix1 L)
      = ∑ i : Fin 2, y (ix2 i L) := by
  simp only [Host.reduceAdd, Ideal.hostReduceAdd_def]
  rw [Ideal.hostReduceAdd_single reducesTo_S2x128_S128_d0 (by decide)]
  rw [show (constant (F := Ideal) S_ .f32 0x00000000#32) (Shape.Idx.first h_S_) = 0 from Ideal.ofBits_zero_f32, zero_add]
  exact Finset.sum_congr rfl fun k _ => congrArg y (funext fun a => Fin.ext (by match a with | ⟨0, _⟩ => rfl | ⟨1, _⟩ => rfl))

/-- The host's sum over the 8 packed sub-rows, from zero, at column c. -/
theorem sum_subrows (y : FVec Ideal S8x16 .f32) (c : Fin 16) :
    Host.reduceAdd (F := Ideal) y (constant (F := Ideal) S_ .f32 0x00000000#32) reducesTo_S8x16_S16_d0 h_S_ (ix1 c)
      = ∑ s : Fin 8, y (ix2 s c) := by
  simp only [Host.reduceAdd, Ideal.hostReduceAdd_def]
  rw [Ideal.hostReduceAdd_single reducesTo_S8x16_S16_d0 (by decide)]
  rw [show (constant (F := Ideal) S_ .f32 0x00000000#32) (Shape.Idx.first h_S_) = 0 from Ideal.ofBits_zero_f32, zero_add]
  exact Finset.sum_congr rfl fun k _ => congrArg y (funext fun a => Fin.ext (by match a with | ⟨0, _⟩ => rfl | ⟨1, _⟩ => rfl))

/-- Lane 16·s + c of the 128 lanes is sub-row s, column c of the 8 × 16 view. -/
theorem subrow_apply {α : Type} (y : S128.Idx → α) (h : S128.ShapeCasts S8x16) (s : Fin 8) (c : Fin 16) :
    shapeCast S8x16 y h (ix2 s c) = y (ix1 (⟨16 * s.val + c.val, by have := s.isLt; have := c.isLt; omega⟩ : Fin 128)) :=
  shapeCast_apply y h _ _ (by
    rw [Shape.rowMajor_val_one, Shape.rowMajor_val_two]
    show 16 * s.val + c.val = s.val * 16 + c.val
    omega)

/-- Core i, lane L of the 2 × 128 view of an output array is its entry (i, 0, L). -/
theorem core_apply {α : Type} (o : S2x1x128.Idx → α) (h : S2x1x128.ShapeCasts S2x128) (i : Fin 2) (L : Fin 128) :
    shapeCast S2x128 o h (ix2 i L) = o (ix3 i (0 : Fin 1) L) :=
  shapeCast_apply o h _ _ (by
    rw [Shape.rowMajor_val_three, Shape.rowMajor_val_two]
    show (i.val * 1 + 0) * 128 + L.val = i.val * 128 + L.val
    omega)

/-- THE FOLD of an output array in closed form, at column c: the column sum in the kernel's order. -/
theorem foldOut_apply (e : ℕ → ℕ → EReal) (c : Fin 16) : foldOut (outArr e) (ix1 c) = colSumK e c.val := by
  unfold foldOut
  rw [sum_subrows]
  unfold colSumK
  refine (Finset.sum_congr rfl fun s _ => ?_).trans
    (Fin.sum_univ_eq_sum_range (fun s => ∑ i ∈ Finset.range 2, coreSum e i (16 * s + c.val)) 8)
  rw [subrow_apply, sum_cores]
  refine (Finset.sum_congr rfl fun i _ => ?_).trans
    (Fin.sum_univ_eq_sum_range (fun i => coreSum e i (16 * s.val + c.val)) 2)
  rw [core_apply]
  rfl

/-- So the fold of an output array in closed form is the column sum over all rows. -/
theorem foldOut_eq (e : ℕ → ℕ → EReal) : foldOut (outArr e) = fun j => colSum e (j 0).val := by
  funext j
  obtain ⟨c, rfl⟩ : ∃ c : Fin 16, j = ix1 c := ⟨j 0, eq_ix1 j⟩
  rw [foldOut_apply, colSumK_eq e c.val c.isLt]

/-- The program's smoothed division is the specification's quotient. -/
theorem smoothDiv_eq (a b : Row) : smoothDiv a b = ratio a b := by
  funext j
  show Ideal.div (a j + broadcastInDim S16 ![] bcast_S_S16 (constant (F := Ideal) S_ .f32 0x358637BD#32) j)
      (b j + broadcastInDim S16 ![] bcast_S_S16 (constant (F := Ideal) S_ .f32 0x358637BD#32) j) = _
  rw [broadcastInDim_apply _ bcast_S_S16 _ j (fun a => a.elim0) (fun a => a.elim0)]
  rfl

end Cert.KernelIdeal.ColSum

end
-- ==== Proof.KRun.lean ====
/-
  The idealized kernel's run, read: after the region and the host lines that follow it the five result buffers hold the
  specification's values — the three column sums and the two smoothed quotients — and the arguments are unchanged.
-/
import proofs.«109113_j42863773614715_2_alg».proof.Proof.KTail

noncomputable section

open Idealize.ShloMosaic Idealize.ShloMosaic.TcCoe Idealize.SL.Sem
open Idealize.ShloMosaic.Pipeline (Dat)

open Idealize.ShloMosaic.ValueIdx

namespace Cert.KernelIdeal.ColSum

open Cert.KernelIdeal Cert.KernelIdeal.Gen Cert.ColSumSpec

variable (m : (ℓ : Loc nD τ sig) → Buf (Elt Ideal) ℓ) (ρ : Dev nD → PrngReg)

/-- The three output arrays as the host lines after the region find them: the closed forms. -/
theorem arr2 (c : Dev nD) :
    Pipeline.withArrays (cfgs 0).spec c (V0 m c) (fun w => (dats m 0 c).arrAt w (cfgs 0).N) (Proc.devRef .tc main_v2_0)
      = outArr (prodAt (predArr m c) (gtArr m c)) :=
  (Pipeline.withArrays_arr spec0 launch0.win.arr_inj c _ _ 2).trans (final2 m c)
theorem arr3 (c : Dev nD) :
    Pipeline.withArrays (cfgs 0).spec c (V0 m c) (fun w => (dats m 0 c).arrAt w (cfgs 0).N) (Proc.devRef .tc main_v2_1)
      = outArr (entry (gtArr m c)) :=
  (Pipeline.withArrays_arr spec0 launch0.win.arr_inj c _ _ 3).trans (final3 m c)
theorem arr4 (c : Dev nD) :
    Pipeline.withArrays (cfgs 0).spec c (V0 m c) (fun w => (dats m 0 c).arrAt w (cfgs 0).N) (Proc.devRef .tc main_v2_2)
      = outArr (entry (predArr m c)) :=
  (Pipeline.withArrays_arr spec0 launch0.win.arr_inj c _ _ 4).trans (final4 m c)

/-- The sum of products, -/
theorem res_inter (c : Dev nD) :
    Pipeline.afterTail₀ cfgs (dats m) 0 (V0 m) [hostOps1] c main_v6 = interRow (predArr m c) (gtArr m c) := by
  unfold Pipeline.afterTail₀
  show StableHlo.after hostOps1 _ (Proc.devRef .tc main_v6) = _
  after_results
  refine (congrArg foldOut (arr2 m c)).trans ?_
  exact foldOut_eq _

/-- the sum of the second argument, -/
theorem res_gtSum (c : Dev nD) :
    Pipeline.afterTail₀ cfgs (dats m) 0 (V0 m) [hostOps1] c main_v10 = gtRow (gtArr m c) := by
  unfold Pipeline.afterTail₀
  show StableHlo.after hostOps1 _ (Proc.devRef .tc main_v10) = _
  after_results
  refine (congrArg foldOut (arr3 m c)).trans ?_
  exact foldOut_eq _

/-- the sum of the first, -/
theorem res_predSum (c : Dev nD) :
    Pipeline.afterTail₀ cfgs (dats m) 0 (V0 m) [hostOps1] c main_v14 = predRow (predArr m c) := by
  unfold Pipeline.afterTail₀
  show StableHlo.after hostOps1 _ (Proc.devRef .tc main_v14) = _
  after_results
  refine (congrArg foldOut (arr4 m c)).trans ?_
  exact foldOut_eq _

/-- the precisions, -/
theorem res_precisions (c : Dev nD) :
    Pipeline.afterTail₀ cfgs (dats m) 0 (V0 m) [hostOps1] c main_v19
      = ratio (interRow (predArr m c) (gtArr m c)) (predRow (predArr m c)) := by
  unfold Pipeline.afterTail₀
  show StableHlo.after hostOps1 _ (Proc.devRef .tc main_v19) = _
  after_results
  refine (congrArg₂ smoothDiv (congrArg foldOut (arr2 m c)) (congrArg foldOut (arr4 m c))).trans ?_
  rw [foldOut_eq, foldOut_eq]
  exact smoothDiv_eq (interRow (predArr m c) (gtArr m c)) (predRow (predArr m c))

set_option maxHeartbeats 1600000 in
/-- and the recalls. -/
theorem res_recalls (c : Dev nD) :
    Pipeline.afterTail₀ cfgs (dats m) 0 (V0 m) [hostOps1] c main_v24
      = ratio (interRow (predArr m c) (gtArr m c)) (gtRow (gtArr m c)) := by
  unfold Pipeline.afterTail₀
  show StableHlo.after hostOps1 _ (Proc.devRef .tc main_v24) = _
  after_results
  refine (congrArg₂ smoothDiv (congrArg foldOut (arr2 m c)) (congrArg foldOut (arr3 m c))).trans ?_
  rw [foldOut_eq, foldOut_eq]
  exact smoothDiv_eq (interRow (predArr m c) (gtArr m c)) (gtRow (gtArr m c))

/-- THE RUN of the idealized kernel: every weakly fair execution terminates with the five results at the specification's
    values and the arguments unchanged. -/
theorem run : θ_run defs (onTc (τ := τ) (main (F := Ideal))) ⟨m, fun _ => 0, ρ⟩ fun r => ∀ c : Dev nD,
      r.2.mem ((c.tc : Thread nD τ).loc main_v19) = ratio (interRow (predArr m c) (gtArr m c)) (predRow (predArr m c))
      ∧ r.2.mem ((c.tc : Thread nD τ).loc main_v24) = ratio (interRow (predArr m c) (gtArr m c)) (gtRow (gtArr m c))
      ∧ r.2.mem ((c.tc : Thread nD τ).loc main_v6) = interRow (predArr m c) (gtArr m c)
      ∧ r.2.mem ((c.tc : Thread nD τ).loc main_v10) = gtRow (gtArr m c)
      ∧ r.2.mem ((c.tc : Thread nD τ).loc main_v14) = predRow (predArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v19 (Pipeline.mem_restRefs_of main_v19 (by decide) (by decide))).trans (res_precisions m c),
     ((h c).2 main_v24 (Pipeline.mem_restRefs_of main_v24 (by decide) (by decide))).trans (res_recalls m c),
     ((h c).2 main_v6 (Pipeline.mem_restRefs_of main_v6 (by decide) (by decide))).trans (res_inter m c),
     ((h c).2 main_v10 (Pipeline.mem_restRefs_of main_v10 (by decide) (by decide))).trans (res_gtSum m c),
     ((h c).2 main_v14 (Pipeline.mem_restRefs_of main_v14 (by decide) (by decide))).trans (res_predSum m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ColSum

end
-- ==== Proof.RefSide.lean ====
/-
  The reference's five results are the specification's: its three reductions over the rows are the three column sums
  (each a host sum from zero over all 4194304 rows), and its two divisions the two smoothed quotients.
-/
import proofs.«109113_j42863773614715_2_alg».proof.Proof.Gen.ReferenceIdeal.Read
import proofs.«109113_j42863773614715_2_alg».proof.Proof.Spec

noncomputable section

open Idealize.ShloMosaic Idealize.ShloMosaic.TcCoe Idealize.SL.Sem
open Idealize.ShloMosaic.Pipeline (Dat)

open Idealize.ShloMosaic.ValueIdx

namespace Cert.ReferenceIdeal.ColSum

open Cert.ReferenceIdeal Cert.ReferenceIdeal.Gen Cert.ReferenceIdeal.Read Cert.ColSumSpec

/-- The index the reduction reads at row k of column c is (k, c). -/
theorem idx_eq (c : Fin 16) (k : Fin 4194304) : idx_main_v1 (ix1 c) k = ix2 k c :=
  funext fun a => Fin.ext (by match a with | ⟨0, _⟩ => rfl | ⟨1, _⟩ => rfl)

/-- The sum of products over the rows is the specification's. -/
theorem inter_eq (p g : Arr) : val_main_v1 (F := Ideal) p g = interRow p g := by
  funext j
  obtain ⟨c, rfl⟩ : ∃ c : Fin 16, j = ix1 c := ⟨j 0, eq_ix1 j⟩
  rw [val_main_v1_apply]
  have hz : (val_main_cst (F := Ideal)) (Shape.Idx.first h_S_) = 0 := Ideal.ofBits_zero_f32
  rw [hz, zero_add]
  refine (Finset.sum_congr rfl fun k _ => ?_).trans (Fin.sum_univ_eq_sum_range (fun R => prodAt p g R c.val) 4194304)
  show p (idx_main_v1 (ix1 c) k) * g (idx_main_v1 (ix1 c) k) = entry p k.val c.val * entry g k.val c.val
  rw [idx_eq, entry_of, entry_of]

/-- The sum of the second argument's entries over the rows is the specification's, -/
theorem gtSum_eq (g : Arr) : val_main_v2 (F := Ideal) g = gtRow g := by
  funext j
  obtain ⟨c, rfl⟩ : ∃ c : Fin 16, j = ix1 c := ⟨j 0, eq_ix1 j⟩
  rw [val_main_v2_apply]
  have hz : (val_main_cst_0 (F := Ideal)) (Shape.Idx.first h_S_) = 0 := Ideal.ofBits_zero_f32
  rw [hz, zero_add]
  refine (Finset.sum_congr rfl fun k _ => ?_).trans (Fin.sum_univ_eq_sum_range (fun R => entry g R c.val) 4194304)
  show g (idx_main_v1 (ix1 c) k) = entry g k.val c.val
  rw [idx_eq, entry_of]

/-- and so is the first argument's. -/
theorem predSum_eq (p : Arr) : val_main_v3 (F := Ideal) p = predRow p := by
  funext j
  obtain ⟨c, rfl⟩ : ∃ c : Fin 16, j = ix1 c := ⟨j 0, eq_ix1 j⟩
  rw [val_main_v3_apply]
  have hz : (val_main_cst_1 (F := Ideal)) (Shape.Idx.first h_S_) = 0 := Ideal.ofBits_zero_f32
  rw [hz, zero_add]
  refine (Finset.sum_congr rfl fun k _ => ?_).trans (Fin.sum_univ_eq_sum_range (fun R => entry p R c.val) 4194304)
  show p (idx_main_v1 (ix1 c) k) = entry p k.val c.val
  rw [idx_eq, entry_of]

/-- The program's smoothed division of two result vectors is the specification's quotient. -/
theorem ratio_eq (a b : Row) :
    Host.divf (F := Ideal) (addf (a : FVec Ideal S16 .f32) (broadcastInDim S16 ![] bcast_S_S16 (constant (F := Ideal) S_ .f32 0x358637BD#32)))
      (addf (b : FVec Ideal S16 .f32) (broadcastInDim S16 ![] bcast_S_S16 (constant (F := Ideal) S_ .f32 0x358637BD#32)))
      = ratio a b := by
  funext j
  show Ideal.div (a j + broadcastInDim S16 ![] bcast_S_S16 (constant (F := Ideal) S_ .f32 0x358637BD#32) j)
      (b j + broadcastInDim S16 ![] bcast_S_S16 (constant (F := Ideal) S_ .f32 0x358637BD#32) j) = _
  rw [broadcastInDim_apply _ bcast_S_S16 _ j (fun a => a.elim0) (fun a => a.elim0)]
  rfl

/-- The recall vector, -/
theorem recalls_eq (p g : Arr) : val_main_v8 (F := Ideal) p g = ratio (interRow p g) (gtRow g) := by
  unfold val_main_v8 val_main_v5 val_main_v7 val_main_v4 val_main_v6 val_main_cst_2 val_main_cst_3
  rw [inter_eq, gtSum_eq]
  exact ratio_eq _ _

/-- and the precision vector. -/
theorem precisions_eq (p g : Arr) : val_main_v13 (F := Ideal) p g = ratio (interRow p g) (predRow p) := by
  unfold val_main_v13 val_main_v10 val_main_v12 val_main_v9 val_main_v11 val_main_cst_4 val_main_cst_5
  rw [inter_eq, predSum_eq]
  exact ratio_eq _ _

end Cert.ReferenceIdeal.ColSum

end
-- ==== Proof.lean ====
/-
  Per-class precision and recall from indicator arrays: a streaming column-sum kernel against three plain column sums.

  For pred and gt of 4194304 rows by 16 columns both programs return, per column c,
      inter c = Σ_R pred(R, c)·gt(R, c),   gtSum c = Σ_R gt(R, c),   predSum c = Σ_R pred(R, c),
      (inter c + ε) / (predSum c + ε)   and   (inter c + ε) / (gtSum c + ε),
  with the same 32-bit word for ε in both.

  The reference sums each column over all rows at once. The kernel packs 8 consecutive rows into one row of 128 lanes
  (lane 16·s + c is column c of the s-th of them), splits the 524288 packed rows between two cores, walks each core's half
  in 32 blocks of 8192 packed rows, and keeps per core one running block of 128 lane sums per statistic — started from zero
  at the core's first block, written back after its last. The host then adds the two cores' blocks and, for each column,
  the 8 lanes that carry it. Every original row is met exactly once, so over the extended reals — where addition is
  commutative and associative whatever infinities occur — the nested sums are the reference's sums; nothing is
  distributed or cancelled, so the finiteness of the inputs is never used. The two divisions are then the same
  function of equal vectors.

  The word-level kernel's and the idealized kernel's termination and untouched arguments are the generated frame
  results; the reference's follow from its generated run. The ideal pass rewrote nothing, so there is nothing to
  preserve.
-/
import proofs.«109113_j42863773614715_2_alg».proof.Defs
import proofs.«109113_j42863773614715_2_alg».proof.Proof.Gen.Kernel
import proofs.«109113_j42863773614715_2_alg».proof.Proof.Gen.Kernel.Frame
import proofs.«109113_j42863773614715_2_alg».proof.Proof.Gen.KernelIdeal
import proofs.«109113_j42863773614715_2_alg».proof.Proof.Gen.KernelIdeal.Frame
import proofs.«109113_j42863773614715_2_alg».proof.Proof.Gen.ReferenceIdeal
import proofs.«109113_j42863773614715_2_alg».proof.Proof.Gen.ReferenceIdeal.Run
import proofs.«109113_j42863773614715_2_alg».proof.Proof.Gen.ReferenceIdeal.Read
import proofs.«109113_j42863773614715_2_alg».proof.Proof.Gen.Pre_finite_inputs
import proofs.«109113_j42863773614715_2_alg».proof.Proof.KRun
import proofs.«109113_j42863773614715_2_alg».proof.Proof.RefSide

noncomputable section

namespace Cert.Proof

open Idealize.ShloMosaic Idealize.SL.Sem Cert.ColSumSpec

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2.2)
    (Cert.ReferenceIdeal.Value.run (F := Ideal) m ρ)

theorem preserves : Cert.preserves_Kernel_KernelIdeal := trivial

/-- Both idealized programs end with the specification's five vectors of the (agreeing) arguments. -/
theorem algebraic : Cert.algebraic_KernelIdeal_ReferenceIdeal := by
  intro m ρ m' ρ' _ hagree
  refine ⟨fun c => ratio (interRow (Cert.KernelIdeal.ColSum.predArr m c) (Cert.KernelIdeal.ColSum.gtArr m c))
        (predRow (Cert.KernelIdeal.ColSum.predArr m c)),
    fun c => ratio (interRow (Cert.KernelIdeal.ColSum.predArr m c) (Cert.KernelIdeal.ColSum.gtArr m c))
        (gtRow (Cert.KernelIdeal.ColSum.gtArr m c)),
    fun c => interRow (Cert.KernelIdeal.ColSum.predArr m c) (Cert.KernelIdeal.ColSum.gtArr m c),
    fun c => gtRow (Cert.KernelIdeal.ColSum.gtArr m c),
    fun c => predRow (Cert.KernelIdeal.ColSum.predArr m c),
    Cert.KernelIdeal.ColSum.run m ρ, ?_⟩
  refine (θ_run Cert.ReferenceIdeal.defs _ _).mono (fun _ h c => ?_) (Cert.ReferenceIdeal.Value.run (F := Ideal) m' ρ')
  obtain ⟨h13, h8, h1, h2, h3, ha0, ha1⟩ := h c
  refine ⟨h13.trans ?_, h8.trans ?_, h1.trans ?_, h2.trans ?_, h3.trans ?_, ha0, ha1⟩
  · rw [Cert.ReferenceIdeal.Read.val_main_v13_eq, (hagree c).1, (hagree c).2]
    exact Cert.ReferenceIdeal.ColSum.precisions_eq _ _
  · rw [Cert.ReferenceIdeal.Read.val_main_v8_eq, (hagree c).1, (hagree c).2]
    exact Cert.ReferenceIdeal.ColSum.recalls_eq _ _
  · rw [Cert.ReferenceIdeal.Read.val_main_v1_eq, (hagree c).1, (hagree c).2]
    exact Cert.ReferenceIdeal.ColSum.inter_eq _ _
  · rw [Cert.ReferenceIdeal.Read.val_main_v2_eq, (hagree c).2]
    exact Cert.ReferenceIdeal.ColSum.gtSum_eq _
  · rw [Cert.ReferenceIdeal.Read.val_main_v3_eq, (hagree c).1]
    exact Cert.ReferenceIdeal.ColSum.predSum_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
